-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S5x1024 : S_.BroadcastsInDim S5x1024 (![] : Fin 0 → Fin S5x1024.rank)
  reducesTo_S5x1024_S_d0_1 : S5x1024.ReducesTo [0, 1] S_
  bcast_S_S5 : S_.BroadcastsInDim S5 (![] : Fin 0 → Fin S5.rank)
  reducesTo_S5_S_d0 : S5.ReducesTo [0] S_
  bcast_S_S30x1024 : S_.BroadcastsInDim S30x1024 (![] : Fin 0 → Fin S30x1024.rank)
  reducesTo_S30x1024_S_d0_1 : S30x1024.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg4 : FVec F S30 .f32) (main_v13 : IVec S_ 1) (main_v16 : IVec S30x1024 1) : IVec S_ 1 :=
  let main_c_5 : IVec S_ 1 := constantI S_ 1 1#1
  let main_v17 : IVec S_ 1 := (fun x v => Host.reduce IntOp.andi x v reducesTo_S30x1024_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  main_v23

def fn {F : FTy → Type} [FloatOps F] (main_arg0 : FVec F S32x2048x1024 .f32) (main_arg1 : FVec F S5x1024 .f32) (main_arg2 : FVec F S5 .f32) (main_arg3 : FVec F S30x1024 .f32) (main_arg4 : FVec F S30 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S5x1024 .f32 := Host.absf main_arg1
  let main_cst_0 : FVec F S_ .f32 := constant S_ .f32 0x7F800000#32
  let main_v5 : FVec F S5x1024 .f32 := broadcastInDim S5x1024 ![] bcast_S_S5x1024 main_cst_0
  let main_v6 : IVec S5x1024 1 := cmpf .olt main_v4 main_v5
  let main_c_1 : IVec S_ 1 := constantI S_ 1 1#1
  let main_v7 : IVec S_ 1 := (fun x v => Host.reduce IntOp.andi x v reducesTo_S5x1024_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S30x1024 .f32 := Host.absf main_arg3
  let main_cst_4 : FVec F S_ .f32 := constant S_ .f32 0x7F800000#32
  let main_v15 : FVec F S30x1024 .f32 := broadcastInDim S30x1024 ![] bcast_S_S30x1024 main_cst_4
  let main_v16 : IVec S30x1024 1 := cmpf .olt main_v14 main_v15
  fn_part1 (F := F) main_arg4 main_v13 main_v16
-- ==== Kernel.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S65536x1024 : Shape := ⟨2, ![65536, 1024]⟩
abbrev S35x1024 : Shape := ⟨2, ![35, 1024]⟩
abbrev S1024x35 : Shape := ⟨2, ![1024, 35]⟩
abbrev S35 : Shape := ⟨1, ![35]⟩
abbrev S1x35 : Shape := ⟨2, ![1, 35]⟩
abbrev S65536x63 : Shape := ⟨2, ![65536, 63]⟩
abbrev S4096x1024 : Shape := ⟨2, ![4096, 1024]⟩
abbrev S4096x63 : Shape := ⟨2, ![4096, 63]⟩
abbrev S4096x35 : Shape := ⟨2, ![4096, 35]⟩
abbrev S4096x5 : Shape := ⟨2, ![4096, 5]⟩
abbrev S4096x30 : Shape := ⟨2, ![4096, 30]⟩
abbrev S4096 : Shape := ⟨1, ![4096]⟩
abbrev S4096x1 : Shape := ⟨2, ![4096, 1]⟩
abbrev S32x2048x63 : Shape := ⟨3, ![32, 2048, 63]⟩

abbrev nBuf : Space → Nat
  | .hbm => 13
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S5x1024, .f32⟩
  | .hbm, ⟨2, _⟩ => ⟨S5, .f32⟩
  | .hbm, ⟨3, _⟩ => ⟨S30x1024, .f32⟩
  | .hbm, ⟨4, _⟩ => ⟨S30, .f32⟩
  | .hbm, ⟨5, _⟩ => ⟨S65536x1024, .f32⟩
  | .hbm, ⟨6, _⟩ => ⟨S35x1024, .f32⟩
  | .hbm, ⟨7, _⟩ => ⟨S1024x35, .f32⟩
  | .hbm, ⟨8, _⟩ => ⟨S1024x35, .bf16⟩
  | .hbm, ⟨9, _⟩ => ⟨S35, .f32⟩
  | .hbm, ⟨10, _⟩ => ⟨S1x35, .f32⟩
  | .hbm, ⟨11, _⟩ => ⟨S65536x63, .f32⟩
  | .hbm, ⟨12, _⟩ => ⟨S32x2048x63, .f32⟩
  | .local _ .vmem, ⟨0, _⟩ => ⟨S4096x1024, .f32⟩
  | .local _ .vmem, ⟨1, _⟩ => ⟨S4096x1024, .f32⟩
  | .local _ .vmem, ⟨2, _⟩ => ⟨S1024x35, .bf16⟩
  | .local _ .vmem, ⟨3, _⟩ => ⟨S1x35, .f32⟩
  | .local _ .vmem, ⟨4, _⟩ => ⟨S4096x63, .f32⟩
  | .local _ .vmem, ⟨5, _⟩ => ⟨S4096x63, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x35 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x35 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x63 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x2048x1024_S65536x1024 : S32x2048x1024.ShapeCasts S65536x1024
  concatenates_S5x1024_S30x1024_S35x1024_d0 : Shape.Concatenates [S5x1024, S30x1024] S35x1024 0
  transposes_S35x1024_S1024x35_1_0 : S35x1024.Transposes [1, 0] S1024x35
  bitsLt_bf16_f32 : FTy.bits .bf16 < FTy.bits .f32
  concatenates_S5_S30_S35_d0 : Shape.Concatenates [S5, S30] S35 0
  shapeCasts_S35_S1x35 : S35.ShapeCasts S1x35
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x35_S1024x35_0_0 : ∀ a, (![0, 0] : Fin 2 → Nat) a + S1024x35.size a ≤ S1024x35.size a
  h_S1024x35 : 0 < S1024x35.numel
  shapeCasts_S1024x35_S1024x35 : S1024x35.ShapeCasts S1024x35
  inb_S1x35_S1x35_0_0 : ∀ a, (![0, 0] : Fin 2 → Nat) a + S1x35.size a ≤ S1x35.size a
  h_S1x35 : 0 < S1x35.numel
  shapeCasts_S1x35_S1x35 : S1x35.ShapeCasts S1x35
  broadcasts_S1x35_S4096x35 : S1x35.Broadcasts S4096x35
  slices_S4096x35_o0_0_S4096x5 : S4096x35.Slices ![0, 0] S4096x5
  slices_S4096x35_o0_5_S4096x30 : S4096x35.Slices ![0, 5] S4096x30
  reduces_S4096x5_S4096 : S4096x5.Reduces [1] S4096
  shapeCasts_S4096_S4096x1 : S4096.ShapeCasts S4096x1
  broadcasts_S4096x1_S4096x5 : S4096x1.Broadcasts S4096x5
  reduces_S4096x30_S4096 : S4096x30.Reduces [1] S4096
  broadcasts_S4096x1_S4096x30 : S4096x1.Broadcasts S4096x30
  slices_S4096x5_o0_0_S4096x1 : S4096x5.Slices ![0, 0] S4096x1
  slices_S4096x5_o0_1_S4096x1 : S4096x5.Slices ![0, 1] S4096x1
  slices_S4096x5_o0_2_S4096x1 : S4096x5.Slices ![0, 2] S4096x1
  slices_S4096x5_o0_3_S4096x1 : S4096x5.Slices ![0, 3] S4096x1
  slices_S4096x5_o0_4_S4096x1 : S4096x5.Slices ![0, 4] S4096x1
  inb_S4096x63_S4096x1_0_0 : ∀ a, (![0, 0] : Fin 2 → Nat) a + S4096x1.size a ≤ S4096x63.size a
  h_S4096x1 : 0 < S4096x1.numel
  inb_S4096x63_S4096x1_0_1 : ∀ a, (![0, 1] : Fin 2 → Nat) a + S4096x1.size a ≤ S4096x63.size a
  inb_S4096x63_S4096x1_0_2 : ∀ a, (![0, 2] : Fin 2 → Nat) a + S4096x1.size a ≤ S4096x63.size a
  inb_S4096x63_S4096x30_0_3 : ∀ a, (![0, 3] : Fin 2 → Nat) a + S4096x30.size a ≤ S4096x63.size a
  h_S4096x30 : 0 < S4096x30.numel
  inb_S4096x63_S4096x30_0_33 : ∀ a, (![0, 33] : Fin 2 → Nat) a + S4096x30.size a ≤ S4096x63.size a
  shapeCasts_S65536x63_S32x2048x63 : S65536x63.ShapeCasts S32x2048x63
  dot_S4096x1024_S1024x35_S4096x35_1_0_0_1_n_n_wf : DotDims.WF S4096x1024 S1024x35 S4096x35 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x35.size a ≤ S1024x35.size a
  hwx0_1 : ∀ i : grid0.Coords, EltTy.bits .bf16 = 32 ∨ (Rect.block (s := S1024x35) S1024x35.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x35.size a ≤ S1x35.size a
  hwx0_2 : ∀ i : grid0.Coords, EltTy.bits .f32 = 32 ∨ (Rect.block (s := S1x35) S1x35.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x63.size a ≤ S65536x63.size a
  hwx0_3 : ∀ i : grid0.Coords, EltTy.bits .f32 = 32 ∨ (Rect.block (s := S65536x63) S4096x63.size (cc0_transform_3 i) (hinb0_3 i)).WholeWords (EltTy.packing .f32)

variable [Facts₀]

def dot_S4096x1024_S1024x35_S4096x35_1_0_0_1_n_n : DotDims S4096x1024 S1024x35 S4096x35 where
  lhsContracting := [1]
  rhsContracting := [0]
  lhsNonContracting := [0]
  rhsNonContracting := [1]
  lhsBatch := []
  rhsBatch := []
  wf := dot_S4096x1024_S1024x35_S4096x35_1_0_0_1_n_n_wf

abbrev win0_0 : Pipeline.Window sig grid0 :=
  Pipeline.Window.ofSpec (Memref.whole main_v0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x35.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x63.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S32x2048x5 : Shape := ⟨3, ![32, 2048, 5]⟩
abbrev S1x1x5 : Shape := ⟨3, ![1, 1, 5]⟩
abbrev S_ : Shape := ⟨0, ![]⟩
abbrev S32x2048 : Shape := ⟨2, ![32, 2048]⟩
abbrev S32x2048x1 : Shape := ⟨3, ![32, 2048, 1]⟩
abbrev S32x2048x30 : Shape := ⟨3, ![32, 2048, 30]⟩
abbrev S1x1x30 : Shape := ⟨3, ![1, 1, 30]⟩
abbrev S32x2048x63 : Shape := ⟨3, ![32, 2048, 63]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S5x1024, .f32⟩
  | .hbm, ⟨2, _⟩ => ⟨S5, .f32⟩
  | .hbm, ⟨3, _⟩ => ⟨S30x1024, .f32⟩
  | .hbm, ⟨4, _⟩ => ⟨S30, .f32⟩
  | .hbm, ⟨5, _⟩ => ⟨S32x2048x5, .f32⟩
  | .hbm, ⟨6, _⟩ => ⟨S1x1x5, .f32⟩
  | .hbm, ⟨7, _⟩ => ⟨S32x2048x5, .f32⟩
  | .hbm, ⟨8, _⟩ => ⟨S32x2048x5, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048x1, .f32⟩
  | .hbm, ⟨15, _⟩ => ⟨S32x2048x5, .f32⟩
  | .hbm, ⟨16, _⟩ => ⟨S32x2048x5, .f32⟩
  | .hbm, ⟨17, _⟩ => ⟨S32x2048x5, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S32x2048x5, .f32⟩
  | .hbm, ⟨22, _⟩ => ⟨S32x2048x5, .f32⟩
  | .hbm, ⟨23, _⟩ => ⟨S32x2048x30, .f32⟩
  | .hbm, ⟨24, _⟩ => ⟨S1x1x30, .f32⟩
  | .hbm, ⟨25, _⟩ => ⟨S32x2048x30, .f32⟩
  | .hbm, ⟨26, _⟩ => ⟨S32x2048x30, .f32⟩
  | .hbm, ⟨27, _⟩ => ⟨S_, .f32⟩
  | .hbm, ⟨28, _⟩ => ⟨S32x2048, .f32⟩
  | .hbm, ⟨29, _⟩ => ⟨S_, .f32⟩
  | .hbm, ⟨30, _⟩ => ⟨S32x2048, .f32⟩
  | .hbm, ⟨31, _⟩ => ⟨S32x2048, .f32⟩
  | .hbm, ⟨32, _⟩ => ⟨S32x2048x1, .f32⟩
  | .hbm, ⟨33, _⟩ => ⟨S32x2048x30, .f32⟩
  | .hbm, ⟨34, _⟩ => ⟨S32x2048x30, .f32⟩
  | .hbm, ⟨35, _⟩ => ⟨S32x2048x30, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S32x2048x30, .f32⟩
  | .hbm, ⟨40, _⟩ => ⟨S32x2048x30, .f32⟩
  | .hbm, ⟨41, _⟩ => ⟨S32x2048x1, .f32⟩
  | .hbm, ⟨42, _⟩ => ⟨S32x2048x1, .f32⟩
  | .hbm, ⟨43, _⟩ => ⟨S32x2048x1, .f32⟩
  | .hbm, ⟨44, _⟩ => ⟨S32x2048x1, .f32⟩
  | .hbm, ⟨45, _⟩ => ⟨S32x2048x1, .f32⟩
  | .hbm, ⟨46, _⟩ => ⟨S32x2048x30, .f32⟩
  | .hbm, ⟨47, _⟩ => ⟨S32x2048x30, .f32⟩
  | .hbm, ⟨48, _⟩ => ⟨S32x2048x30, .f32⟩
  | .hbm, ⟨49, _⟩ => ⟨S32x2048x30, .f32⟩
  | .hbm, ⟨50, _⟩ => ⟨S32x2048x63, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  bcast_S5_S1x1x5_2 : S5.BroadcastsInDim S1x1x5 (![2] : Fin 1 → Fin S1x1x5.rank)
  bcast_S1x1x5_S32x2048x5_0_1_2 : S1x1x5.BroadcastsInDim S32x2048x5 (![0, 1, 2] : Fin 3 → Fin S32x2048x5.rank)
  reducesTo_S32x2048x5_S32x2048_d2 : S32x2048x5.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x5_0_1_2 : S32x2048x1.BroadcastsInDim S32x2048x5 (![0, 1, 2] : Fin 3 → Fin S32x2048x5.rank)
  bcast_S30_S1x1x30_2 : S30.BroadcastsInDim S1x1x30 (![2] : Fin 1 → Fin S1x1x30.rank)
  bcast_S1x1x30_S32x2048x30_0_1_2 : S1x1x30.BroadcastsInDim S32x2048x30 (![0, 1, 2] : Fin 3 → Fin S32x2048x30.rank)
  reducesTo_S32x2048x30_S32x2048_d2 : S32x2048x30.ReducesTo [2] S32x2048
  bcast_S32x2048x1_S32x2048x30_0_1_2 : S32x2048x1.BroadcastsInDim S32x2048x30 (![0, 1, 2] : Fin 3 → Fin S32x2048x30.rank)
  slices_S32x2048x5_S32x2048x1_0_0_0 : S32x2048x5.Slices ![0, 0, 0] S32x2048x1
  slices_S32x2048x5_S32x2048x1_0_0_1 : S32x2048x5.Slices ![0, 0, 1] S32x2048x1
  slices_S32x2048x5_S32x2048x1_0_0_2 : S32x2048x5.Slices ![0, 0, 2] S32x2048x1
  slices_S32x2048x5_S32x2048x1_0_0_3 : S32x2048x5.Slices ![0, 0, 3] S32x2048x1
  slices_S32x2048x5_S32x2048x1_0_0_4 : S32x2048x5.Slices ![0, 0, 4] S32x2048x1
  concatenates_S32x2048x1_S32x2048x1_S32x2048x1_S32x2048x30_S32x2048x30_S32x2048x63_d2 : Shape.Concatenates [S32x2048x1, S32x2048x1, S32x2048x1, S32x2048x30, S32x2048x30] S32x2048x63 2
  dot_S32x2048x1024_S5x1024_S32x2048x5_2_1_01_0_n_n_wf : DotDims.WF S32x2048x1024 S5x1024 S32x2048x5 [2] [1] [0, 1] [0] [] []
  dot_S32x2048x1024_S30x1024_S32x2048x30_2_1_01_0_n_n_wf : DotDims.WF S32x2048x1024 S30x1024 S32x2048x30 [2] [1] [0, 1] [0] [] []

variable [Facts₀]

def dot_S32x2048x1024_S5x1024_S32x2048x5_2_1_01_0_n_n : DotDims S32x2048x1024 S5x1024 S32x2048x5 where
  lhsContracting := [2]
  rhsContracting := [1]
  lhsNonContracting := [0, 1]
  rhsNonContracting := [0]
  lhsBatch := []
  rhsBatch := []
  wf := dot_S32x2048x1024_S5x1024_S32x2048x5_2_1_01_0_n_n_wf
def dot_S32x2048x1024_S30x1024_S32x2048x30_2_1_01_0_n_n : DotDims S32x2048x1024 S30x1024 S32x2048x30 where
  lhsContracting := [2]
  rhsContracting := [1]
  lhsNonContracting := [0, 1]
  rhsNonContracting := [0]
  lhsBatch := []
  rhsBatch := []
  wf := dot_S32x2048x1024_S30x1024_S32x2048x30_2_1_01_0_n_n_wf

class Facts : Prop extends Facts₀ where

variable [Facts]
-- ==== Proof.Spec.lean ====
/-
  The table both programs compute. For every (batch, time) position the 1024 features are sent through two
  affine heads (five status logits and thirty flight logits), each head is normalised by a softmax, and
  the 63 action probabilities are laid out as
      0 -> p 0,   1 -> p 2,   2 -> p 1,   3 + f -> p 4 * q f,   33 + f -> p 3 * q f     (f < 30),
  with p the status softmax and q the flight softmax.

  Everything is stated on the extended reals exactly as the two programs spell it: an inner product plus a bias;
  the maximum of the logits folded from -inf and taken once more against -inf; exp of the shifted logit over the
  sum of the shifted exps. No algebraic law is needed: the two programs compute this same term, the one a row
  block at a time on a fused 35-column weight matrix, the other head by head on the whole array.
-/
import Idealize.ShloMosaic.PureOps.Ideal
import Idealize.ShloMosaic.PureOps.Ideal.Laws
import Idealize.ShloMosaic.Lib.ValueIdx

noncomputable section

namespace Cert.Scatter

open Idealize.ShloMosaic Idealize.ShloMosaic.ValueIdx

/-- Minus infinity, by the word both programs write it with. -/
abbrev negInf : EReal := Ideal.ofBits .f32 0xFF800000#32

/-- One class's logit: the row's inner product with the class's weight row, plus the class's bias. -/
def logit (x w : Fin 1024 → EReal) (b : EReal) : EReal := (∑ k : Fin 1024, x k * w k) + b

/-- What the softmax subtracts: the maximum of the logits, folded from minus infinity, and taken against minus
    infinity once more. -/
def rowMax {n : ℕ} (l : Fin n → EReal) : EReal :=
  max negInf ((Finset.univ : Finset (Fin n)).fold max negInf l)

/-- The softmax of n logits at class j: exp of the shifted logit over the sum of the shifted exps. -/
def softmax {n : ℕ} (l : Fin n → EReal) (j : Fin n) : EReal :=
  Ideal.div (Ideal.exp (l j - rowMax l)) (∑ s : Fin n, Ideal.exp (l s - rowMax l))

/-- The 63 action probabilities from the status probabilities p and the flight probabilities q. -/
def actions (p : Fin 5 → EReal) (q : Fin 30 → EReal) (j : Fin 63) : EReal :=
  if j.val = 0 then p 0
  else if j.val = 1 then p 2
  else if j.val = 2 then p 1
  else if h : j.val < 33 then p 4 * q ⟨j.val - 3, by omega⟩
  else p 3 * q ⟨j.val - 33, by omega⟩

/-- The five status probabilities of a feature row. -/
def statusProbs (x : Fin 1024 → EReal) (Ws : Fin 5 → Fin 1024 → EReal) (bs : Fin 5 → EReal) : Fin 5 → EReal :=
  softmax fun s => logit x (Ws s) (bs s)

/-- The thirty flight probabilities of a feature row. -/
def flightProbs (x : Fin 1024 → EReal) (Wf : Fin 30 → Fin 1024 → EReal) (bf : Fin 30 → EReal) : Fin 30 → EReal :=
  softmax fun f => logit x (Wf f) (bf f)

/-- One position's 63 action probabilities. -/
def rowTable (x : Fin 1024 → EReal) (Ws : Fin 5 → Fin 1024 → EReal) (bs : Fin 5 → EReal)
    (Wf : Fin 30 → Fin 1024 → EReal) (bf : Fin 30 → EReal) : Fin 63 → EReal :=
  actions (statusProbs x Ws bs) (flightProbs x Wf bf)

/-- The whole result as one function of the five argument arrays, by coordinates. -/
def table (E : (⟨3, ![32, 2048, 1024]⟩ : Shape).Idx → EReal) (Ws : (⟨2, ![5, 1024]⟩ : Shape).Idx → EReal)
    (bs : (⟨1, ![5]⟩ : Shape).Idx → EReal) (Wf : (⟨2, ![30, 1024]⟩ : Shape).Idx → EReal)
    (bf : (⟨1, ![30]⟩ : Shape).Idx → EReal) (b : Fin 32) (t : Fin 2048) (j : Fin 63) : EReal :=
  rowTable (fun k => E (ix3 b t k)) (fun s k => Ws (ix2 s k)) (fun s => bs (ix1 s))
    (fun f k => Wf (ix2 f k)) (fun f => bf (ix1 f)) j

/-- The same, as contents of the result array f32[32, 2048, 63]. -/
def result (E : (⟨3, ![32, 2048, 1024]⟩ : Shape).Idx → EReal) (Ws : (⟨2, ![5, 1024]⟩ : Shape).Idx → EReal)
    (bs : (⟨1, ![5]⟩ : Shape).Idx → EReal) (Wf : (⟨2, ![30, 1024]⟩ : Shape).Idx → EReal)
    (bf : (⟨1, ![30]⟩ : Shape).Idx → EReal) : (⟨3, ![32, 2048, 63]⟩ : Shape).Idx → EReal :=
  fun i => table E Ws bs Wf bf (i 0) (i 1) (i 2)

theorem result_ix3 (E : (⟨3, ![32, 2048, 1024]⟩ : Shape).Idx → EReal) (Ws : (⟨2, ![5, 1024]⟩ : Shape).Idx → EReal)
    (bs : (⟨1, ![5]⟩ : Shape).Idx → EReal) (Wf : (⟨2, ![30, 1024]⟩ : Shape).Idx → EReal)
    (bf : (⟨1, ![30]⟩ : Shape).Idx → EReal) (b : Fin 32) (t : Fin 2048) (j : Fin 63) :
    result E Ws bs Wf bf (ix3 b t j) = table E Ws bs Wf bf b t j := rfl

/-! The five column ranges of the layout, each read off the definition of actions. -/

theorem actions_0 (p : Fin 5 → EReal) (q : Fin 30 → EReal) : actions p q ⟨0, by decide⟩ = p 0 := by
  unfold actions; rw [if_pos rfl]
theorem actions_1 (p : Fin 5 → EReal) (q : Fin 30 → EReal) : actions p q ⟨1, by decide⟩ = p 2 := by
  unfold actions; rw [if_neg (by decide), if_pos rfl]
theorem actions_2 (p : Fin 5 → EReal) (q : Fin 30 → EReal) : actions p q ⟨2, by decide⟩ = p 1 := by
  unfold actions; rw [if_neg (by decide), if_neg (by decide), if_pos rfl]
theorem actions_book (p : Fin 5 → EReal) (q : Fin 30 → EReal) (f : Fin 30) (j : Fin 63) (hj : j.val = 3 + f.val) :
    actions p q j = p 4 * q f := by
  have hf := f.isLt
  unfold actions
  rw [if_neg (by omega), if_neg (by omega), if_neg (by omega), dif_pos (by omega)]
  congr 2; apply Fin.ext; show j.val - 3 = f.val; omega
theorem actions_change (p : Fin 5 → EReal) (q : Fin 30 → EReal) (f : Fin 30) (j : Fin 63) (hj : j.val = 33 + f.val) :
    actions p q j = p 3 * q f := by
  unfold actions
  rw [if_neg (by omega), if_neg (by omega), if_neg (by omega), dif_neg (by omega)]
  congr 2; apply Fin.ext; show j.val - 33 = f.val; omega

end Cert.Scatter

end
-- ==== Proof.RefTable.lean ====
/-
  The reference computes the table. Its 46 host operations, read one at a time at an index: the two matrix products are
  the inner products of a position's feature row with a head's weight rows; the biases are broadcast over the positions;
  each row's maximum is a fold of max from minus infinity over the head's classes, taken once more against minus infinity;
  the shifted logits are exponentiated, summed from zero over the classes, and divided; five one-column slices of the status
  probabilities and two products with the flight probabilities are joined along the last axis in the order 0, 2, 1, 4·q, 3·q.
  Index by index that is the specification's term: the only rewriting is of indices, and zero plus a sum to the sum.
-/
import proofs.«104950_j46969762349381_2_alg».proof.Proof.RefRead
import proofs.«104950_j46969762349381_2_alg».proof.Proof.Spec
import Idealize.ShloMosaic.Lib.Pipeline.Value
import Idealize.ShloMosaic.Lib.ValueIdx
import Idealize.ShloMosaic.PureOps.Ideal.Laws

noncomputable section

namespace Cert.ReferenceIdeal.Table

open Cert.ReferenceIdeal Cert.ReferenceIdeal.Gen Cert.ReferenceIdeal.Read Cert.Scatter
open Idealize.ShloMosaic Idealize.ShloMosaic.ValueIdx

variable (x0 : (⟨S32x2048x1024, .f32⟩ : BufTy).Contents (Elt Ideal)) (x1 : (⟨S5x1024, .f32⟩ : BufTy).Contents (Elt Ideal))
  (x2 : (⟨S5, .f32⟩ : BufTy).Contents (Elt Ideal)) (x3 : (⟨S30x1024, .f32⟩ : BufTy).Contents (Elt Ideal))
  (x4 : (⟨S30, .f32⟩ : BufTy).Contents (Elt Ideal))

/-- The five status logits of position (b, t). -/
def lS (b : Fin 32) (t : Fin 2048) : Fin 5 → EReal :=
  fun s => logit (fun k => x0 (ix3 b t k)) (fun k => x1 (ix2 s k)) (x2 (ix1 s))
/-- The thirty flight logits of position (b, t). -/
def lF (b : Fin 32) (t : Fin 2048) : Fin 30 → EReal :=
  fun f => logit (fun k => x0 (ix3 b t k)) (fun k => x3 (ix2 f k)) (x4 (ix1 f))

/-! ## The status head -/

/-- A status logit: the matrix product's entry plus the broadcast bias. -/
theorem logitS (b : Fin 32) (t : Fin 2048) (s : Fin 5) :
    val_main_v3 (F := Ideal) x0 x1 x2 (ix3 b t s) = lS x0 x1 x2 b t s := by
  rw [val_main_v3_apply, val_main_v0_apply, val_main_v2_apply, val_main_v1_apply, Ideal.addf_def,
    show idx_main_v1 (idx_main_v2 (ix3 b t s)) = ix1 s from funext fun a => match a with | ⟨0, _⟩ => rfl]
  simp only [show ∀ k, lidx_main_v0 (ix3 b t s) k = ix3 b t k from fun k => funext fun a => match a with | ⟨0, _⟩ => rfl | ⟨1, _⟩ => rfl | ⟨2, _⟩ => rfl,
    show ∀ k, ridx_main_v0 (ix3 b t s) k = ix2 s k from fun k => funext fun a => match a with | ⟨0, _⟩ => rfl | ⟨1, _⟩ => rfl]
  rfl

theorem red5 : S32x2048x5.Reduces [2] S32x2048 := by decide

/-- The source index over position (b, t) with class s inserted on the reduced axis. -/
theorem lift5 (b : Fin 32) (t : Fin 2048) (s : Fin 5) : red5.lift (ix2 b t) s = ix3 b t s :=
  funext fun a => Fin.ext (by
    show red5.liftVal (ix2 b t) s.val a = (ix3 b t s a).val
    unfold Shape.Reduces.liftVal
    match a with
    | ⟨0, _⟩ => exact (dif_neg (show ¬ (0 : ℕ) = 2 by decide)).trans ((dif_pos (show (0 : ℕ) < 2 by decide)).trans rfl)
    | ⟨1, _⟩ => exact (dif_neg (show ¬ (1 : ℕ) = 2 by decide)).trans ((dif_pos (show (1 : ℕ) < 2 by decide)).trans rfl)
    | ⟨2, _⟩ => exact (dif_pos (show (2 : ℕ) = 2 from rfl)).trans rfl)

/-- The status row maximum: the fold of max over the five logits from minus infinity, against minus infinity. -/
theorem maxS (b : Fin 32) (t : Fin 2048) :
    val_main_v6 (F := Ideal) x0 x1 x2 (ix2 b t) = rowMax (lS x0 x1 x2 b t) := by
  rw [val_main_v6_apply, val_main_v5_apply, val_main_cst_0_apply]
  unfold val_main_v4
  rw [Host.reduce_eq_fold_single FloatOps.maximumf _ _ reducesTo_S32x2048x5_S32x2048_d2 red5 h_S_ (ix2 b t)]
  have hl : (val_main_v3 (F := Ideal) x0 x1 x2 ∘ red5.lift (ix2 b t)) = lS x0 x1 x2 b t :=
    funext fun s => (congrArg (val_main_v3 (F := Ideal) x0 x1 x2) (lift5 b t s)).trans (logitS x0 x1 x2 b t s)
  rw [hl]
  rfl

/-- A shifted status logit, exponentiated. -/
theorem expS (b : Fin 32) (t : Fin 2048) (s : Fin 5) :
    val_main_v10 (F := Ideal) x0 x1 x2 (ix3 b t s) = Ideal.exp (lS x0 x1 x2 b t s - rowMax (lS x0 x1 x2 b t)) := by
  rw [val_main_v10_apply, Ideal.hostUnary_exp_def, val_main_v9_apply, Ideal.subf_def, val_main_v8_apply, val_main_v7_apply,
    show idx_main_v7 (idx_main_v8 (ix3 b t s)) = ix2 b t from funext fun a => match a with | ⟨0, _⟩ => rfl | ⟨1, _⟩ => rfl, maxS, logitS]

/-- The status normaliser: zero plus the sum of the five shifted exps is their sum. -/
theorem sumS (b : Fin 32) (t : Fin 2048) :
    val_main_v11 (F := Ideal) x0 x1 x2 (ix2 b t)
      = ∑ s : Fin 5, Ideal.exp (lS x0 x1 x2 b t s - rowMax (lS x0 x1 x2 b t)) := by
  rw [val_main_v11_apply, val_main_cst_1_apply, Ideal.ofBits_def, Ideal.ofBits_zero_f32, zero_add]
  refine Finset.sum_congr rfl fun s _ => ?_
  rw [show idx_main_v11 (ix2 b t) s = ix3 b t s from funext fun a => match a with | ⟨0, _⟩ => rfl | ⟨1, _⟩ => rfl | ⟨2, _⟩ => rfl]
  exact expS x0 x1 x2 b t s

/-- A status probability is the softmax of the status logits. -/
theorem probS (b : Fin 32) (t : Fin 2048) (s : Fin 5) :
    val_main_v14 (F := Ideal) x0 x1 x2 (ix3 b t s) = softmax (lS x0 x1 x2 b t) s := by
  rw [val_main_v14_apply, Ideal.hostDivf_def, val_main_v13_apply, val_main_v12_apply,
    show idx_main_v12 (idx_main_v13 (ix3 b t s)) = ix2 b t from funext fun a => match a with | ⟨0, _⟩ => rfl | ⟨1, _⟩ => rfl, sumS, expS]
  rfl

/-! ## The flight head -/

/-- A flight logit: the matrix product's entry plus the broadcast bias. -/
theorem logitF (b : Fin 32) (t : Fin 2048) (f : Fin 30) :
    val_main_v18 (F := Ideal) x0 x3 x4 (ix3 b t f) = lF x0 x3 x4 b t f := by
  rw [val_main_v18_apply, val_main_v15_apply, val_main_v17_apply, val_main_v16_apply, Ideal.addf_def,
    show idx_main_v16 (idx_main_v17 (ix3 b t f)) = ix1 f from funext fun a => match a with | ⟨0, _⟩ => rfl]
  simp only [show ∀ k, lidx_main_v15 (ix3 b t f) k = ix3 b t k from fun k => funext fun a => match a with | ⟨0, _⟩ => rfl | ⟨1, _⟩ => rfl | ⟨2, _⟩ => rfl,
    show ∀ k, ridx_main_v15 (ix3 b t f) k = ix2 f k from fun k => funext fun a => match a with | ⟨0, _⟩ => rfl | ⟨1, _⟩ => rfl]
  rfl

theorem red30 : S32x2048x30.Reduces [2] S32x2048 := by decide

/-- The source index over position (b, t) with class f inserted on the reduced axis. -/
theorem lift30 (b : Fin 32) (t : Fin 2048) (f : Fin 30) : red30.lift (ix2 b t) f = ix3 b t f :=
  funext fun a => Fin.ext (by
    show red30.liftVal (ix2 b t) f.val a = (ix3 b t f a).val
    unfold Shape.Reduces.liftVal
    match a with
    | ⟨0, _⟩ => exact (dif_neg (show ¬ (0 : ℕ) = 2 by decide)).trans ((dif_pos (show (0 : ℕ) < 2 by decide)).trans rfl)
    | ⟨1, _⟩ => exact (dif_neg (show ¬ (1 : ℕ) = 2 by decide)).trans ((dif_pos (show (1 : ℕ) < 2 by decide)).trans rfl)
    | ⟨2, _⟩ => exact (dif_pos (show (2 : ℕ) = 2 from rfl)).trans rfl)

/-- The flight row maximum: the fold of max over the thirty logits from minus infinity, against minus infinity. -/
theorem maxF (b : Fin 32) (t : Fin 2048) :
    val_main_v21 (F := Ideal) x0 x3 x4 (ix2 b t) = rowMax (lF x0 x3 x4 b t) := by
  rw [val_main_v21_apply, val_main_v20_apply, val_main_cst_3_apply]
  unfold val_main_v19
  rw [Host.reduce_eq_fold_single FloatOps.maximumf _ _ reducesTo_S32x2048x30_S32x2048_d2 red30 h_S_ (ix2 b t)]
  have hl : (val_main_v18 (F := Ideal) x0 x3 x4 ∘ red30.lift (ix2 b t)) = lF x0 x3 x4 b t :=
    funext fun f => (congrArg (val_main_v18 (F := Ideal) x0 x3 x4) (lift30 b t f)).trans (logitF x0 x3 x4 b t f)
  rw [hl]
  rfl

/-- A shifted flight logit, exponentiated. -/
theorem expF (b : Fin 32) (t : Fin 2048) (f : Fin 30) :
    val_main_v25 (F := Ideal) x0 x3 x4 (ix3 b t f) = Ideal.exp (lF x0 x3 x4 b t f - rowMax (lF x0 x3 x4 b t)) := by
  rw [val_main_v25_apply, Ideal.hostUnary_exp_def, val_main_v24_apply, Ideal.subf_def, val_main_v23_apply, val_main_v22_apply,
    show idx_main_v22 (idx_main_v23 (ix3 b t f)) = ix2 b t from funext fun a => match a with | ⟨0, _⟩ => rfl | ⟨1, _⟩ => rfl, maxF, logitF]

/-- The flight normaliser: zero plus the sum of the thirty shifted exps is their sum. -/
theorem sumF (b : Fin 32) (t : Fin 2048) :
    val_main_v26 (F := Ideal) x0 x3 x4 (ix2 b t)
      = ∑ f : Fin 30, Ideal.exp (lF x0 x3 x4 b t f - rowMax (lF x0 x3 x4 b t)) := by
  rw [val_main_v26_apply, val_main_cst_4_apply, Ideal.ofBits_def, Ideal.ofBits_zero_f32, zero_add]
  refine Finset.sum_congr rfl fun f _ => ?_
  rw [show idx_main_v26 (ix2 b t) f = ix3 b t f from funext fun a => match a with | ⟨0, _⟩ => rfl | ⟨1, _⟩ => rfl | ⟨2, _⟩ => rfl]
  exact expF x0 x3 x4 b t f

/-- A flight probability is the softmax of the flight logits. -/
theorem probF (b : Fin 32) (t : Fin 2048) (f : Fin 30) :
    val_main_v29 (F := Ideal) x0 x3 x4 (ix3 b t f) = softmax (lF x0 x3 x4 b t) f := by
  rw [val_main_v29_apply, Ideal.hostDivf_def, val_main_v28_apply, val_main_v27_apply,
    show idx_main_v27 (idx_main_v28 (ix3 b t f)) = ix2 b t from funext fun a => match a with | ⟨0, _⟩ => rfl | ⟨1, _⟩ => rfl, sumF, expF]
  rfl
/-! ## The join along the last axis, read at a coordinate -/

section Join
variable {α : Type} (A B C : S32x2048x1.Idx → α) (D E : S32x2048x30.Idx → α) (b : Fin 32) (t : Fin 2048)

/-- Column 0 is the first one-column operand. -/
theorem cat_col0 : concatenate S32x2048x63 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 (ix3 b t (⟨0, by decide⟩ : Fin 63)) = A (ix3 b t (0 : Fin 1)) :=
  concatenate_apply_piece (t := S32x2048x63) 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 _ 0 (by show (0 : ℕ) < 5; decide) S32x2048x1 A rfl rfl 0 rfl (ix3 b t (0 : Fin 1)) (fun b' hb => match b' with | ⟨0, _⟩ => rfl | ⟨1, _⟩ => rfl | ⟨2, _⟩ => (hb (Fin.ext rfl)).elim) rfl
/-- Column 1 is the second one-column operand. -/
theorem cat_col1 : concatenate S32x2048x63 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 (ix3 b t (⟨1, by decide⟩ : Fin 63)) = B (ix3 b t (0 : Fin 1)) :=
  concatenate_apply_piece (t := S32x2048x63) 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 _ 1 (by show (1 : ℕ) < 5; decide) S32x2048x1 B rfl rfl 1 rfl (ix3 b t (0 : Fin 1)) (fun b' hb => match b' with | ⟨0, _⟩ => rfl | ⟨1, _⟩ => rfl | ⟨2, _⟩ => (hb (Fin.ext rfl)).elim) rfl
/-- Column 2 is the third one-column operand. -/
theorem cat_col2 : concatenate S32x2048x63 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 (ix3 b t (⟨2, by decide⟩ : Fin 63)) = C (ix3 b t (0 : Fin 1)) :=
  concatenate_apply_piece (t := S32x2048x63) 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 _ 2 (by show (2 : ℕ) < 5; decide) S32x2048x1 C rfl rfl 2 rfl (ix3 b t (0 : Fin 1)) (fun b' hb => match b' with | ⟨0, _⟩ => rfl | ⟨1, _⟩ => rfl | ⟨2, _⟩ => (hb (Fin.ext rfl)).elim) rfl
/-- Columns 3 to 32 are the first thirty-column operand. -/
theorem cat_book (f : Fin 30) (j : Fin 63) (hj : j.val = 3 + f.val) : concatenate S32x2048x63 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 (ix3 b t j) = D (ix3 b t f) :=
  concatenate_apply_piece (t := S32x2048x63) 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 _ 3 (by show (3 : ℕ) < 5; decide) S32x2048x30 D rfl rfl 3 rfl (ix3 b t f) (fun b' hb => match b' with | ⟨0, _⟩ => rfl | ⟨1, _⟩ => rfl | ⟨2, _⟩ => (hb (Fin.ext rfl)).elim) hj.symm
/-- Columns 33 to 62 are the second thirty-column operand. -/
theorem cat_change (f : Fin 30) (j : Fin 63) (hj : j.val = 33 + f.val) : concatenate S32x2048x63 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 (ix3 b t j) = E (ix3 b t f) :=
  concatenate_apply_piece (t := S32x2048x63) 2 [⟨S32x2048x1, A⟩, ⟨S32x2048x1, B⟩, ⟨S32x2048x1, C⟩, ⟨S32x2048x30, D⟩, ⟨S32x2048x30, E⟩] concatenates_S32x2048x1_S32x2048x1_S32x2048x1_S32x2048x30_S32x2048x30_S32x2048x63_d2 _ 4 (by show (4 : ℕ) < 5; decide) S32x2048x30 E rfl rfl 33 rfl (ix3 b t f) (fun b' hb => match b' with | ⟨0, _⟩ => rfl | ⟨1, _⟩ => rfl | ⟨2, _⟩ => (hb (Fin.ext rfl)).elim) hj.symm

end Join

/-! ## The reference's result is the table -/

theorem ref_table : val_main_v39 (F := Ideal) x0 x1 x2 x3 x4 = result x0 x1 x2 x3 x4 := by
  funext i
  obtain ⟨b, t, j, rfl⟩ : ∃ (b : Fin 32) (t : Fin 2048) (j : Fin 63), i = ix3 b t j := ⟨i 0, i 1, i 2, eq_ix3 i⟩
  rw [result_ix3]
  show _ = actions (softmax (lS x0 x1 x2 b t)) (softmax (lF x0 x3 x4 b t)) j
  unfold val_main_v39
  by_cases h0 : j.val = 0
  · obtain rfl : j = ⟨0, by decide⟩ := Fin.ext h0
    rw [cat_col0, actions_0, val_main_v30_apply,
      show idx_main_v30 (ix3 b t (0 : Fin 1)) = ix3 b t (0 : Fin 5) from funext fun a => match a with | ⟨0, _⟩ => rfl | ⟨1, _⟩ => rfl | ⟨2, _⟩ => rfl, probS]
  by_cases h1 : j.val = 1
  · obtain rfl : j = ⟨1, by decide⟩ := Fin.ext h1
    rw [cat_col1, actions_1, val_main_v32_apply,
      show idx_main_v32 (ix3 b t (0 : Fin 1)) = ix3 b t (2 : Fin 5) from funext fun a => match a with | ⟨0, _⟩ => rfl | ⟨1, _⟩ => rfl | ⟨2, _⟩ => rfl, probS]
  by_cases h2 : j.val = 2
  · obtain rfl : j = ⟨2, by decide⟩ := Fin.ext h2
    rw [cat_col2, actions_2, val_main_v31_apply,
      show idx_main_v31 (ix3 b t (0 : Fin 1)) = ix3 b t (1 : Fin 5) from funext fun a => match a with | ⟨0, _⟩ => rfl | ⟨1, _⟩ => rfl | ⟨2, _⟩ => rfl, probS]
  by_cases h3 : j.val < 33
  · have hf : j.val - 3 < 30 := by omega
    have hj : j.val = 3 + (⟨j.val - 3, hf⟩ : Fin 30).val := by show j.val = 3 + (j.val - 3); omega
    rw [cat_book _ _ _ _ _ b t ⟨j.val - 3, hf⟩ j hj, actions_book _ _ ⟨j.val - 3, hf⟩ j hj,
      val_main_v36_apply, Ideal.mulf_def, val_main_v35_apply, val_main_v34_apply,
      show idx_main_v34 (idx_main_v35 (ix3 b t (⟨j.val - 3, hf⟩ : Fin 30))) = ix3 b t (4 : Fin 5) from funext fun a => match a with | ⟨0, _⟩ => rfl | ⟨1, _⟩ => rfl | ⟨2, _⟩ => rfl, probS, probF]
  · have hf : j.val - 33 < 30 := by have := j.isLt; omega
    have hj : j.val = 33 + (⟨j.val - 33, hf⟩ : Fin 30).val := by show j.val = 33 + (j.val - 33); omega
    rw [cat_change _ _ _ _ _ b t ⟨j.val - 33, hf⟩ j hj, actions_change _ _ ⟨j.val - 33, hf⟩ j hj,
      val_main_v38_apply, Ideal.mulf_def, val_main_v37_apply, val_main_v33_apply,
      show idx_main_v33 (idx_main_v37 (ix3 b t (⟨j.val - 33, hf⟩ : Fin 30))) = ix3 b t (3 : Fin 5) from funext fun a => match a with | ⟨0, _⟩ => rfl | ⟨1, _⟩ => rfl | ⟨2, _⟩ => rfl, probS, probF]

open Idealize.ShloMosaic.TcCoe Idealize.SL.Sem in
/-- The reference run's result term, at the extended reals, is the table of the argument arrays. -/
theorem result_eq (m : (ℓ : Loc nD τ sig) → Buf (Elt Ideal) ℓ) (c : Dev nD) :
    Cert.ReferenceIdeal.Value.res_main_v39 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v39_eq m c).trans (ref_table _ _ _ _ _)

end Cert.ReferenceIdeal.Table

end
-- ==== Proof.KernelRow.lean ====
/-
  The kernel body's arithmetic, read at an index. One grid point holds 4096 positions: a block x0 of 4096 feature rows, the
  fused weight matrix x1 (1024 by 35: column j is weight row j of the two heads laid end to end) and the fused bias row x2.
  Entry (r, j) of the matrix product into a zero accumulator is the inner product of feature row r with column j; adding the
  broadcast bias gives the 35 logits of row r. Columns 0 to 4 are the status logits, columns 5 to 34 the flight logits; each
  group is normalised by the softmax the specification names (lane maximum from minus infinity and against it, exp of the
  shift, lane sum, quotient). The five stored pieces are status columns 0, 2 and 1 and the products of status columns 4 and
  3 with the flight probabilities.
-/
import proofs.«104950_j46969762349381_2_alg».proof.Proof.Gen.KernelIdeal.Skeleton
import proofs.«104950_j46969762349381_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Cert.Scatter
open Idealize.ShloMosaic Idealize.ShloMosaic.ValueIdx

/-! ## Keepdims layouts at an index -/

section Layout
variable {α : Type}

/-- A vector of 4096 entries cast to one column: entry (r, 0) is entry r. -/
theorem col_cast (v : S4096.Idx → α) (h : S4096.ShapeCasts S4096x1) (r : Fin 4096) (u : Fin 1) :
    shapeCast S4096x1 v h (ix2 r u) = v (ix1 r) :=
  shapeCast_apply v h _ _ (by
    have hu : u.val = 0 := by omega
    rw [Shape.rowMajor_val_one, Shape.rowMajor_val_two]
    show r.val = r.val * 1 + u.val
    omega)

/-- One column broadcast along five lanes: entry (r, s) is entry (r, 0). -/
theorem col_bcast5 (v : S4096x1.Idx → α) (h : S4096x1.Broadcasts S4096x5) (r : Fin 4096) (s : Fin 5) :
    broadcastTo S4096x5 v h (ix2 r s) = v (ix2 r (0 : Fin 1)) :=
  broadcastTo_apply v h _ _ fun ax => by
    match ax with
    | ⟨0, _⟩ => show r.val = if (4096 : ℕ) = 1 then 0 else r.val; rw [if_neg (by decide)]
    | ⟨1, _⟩ => show (0 : ℕ) = if (1 : ℕ) = 1 then 0 else s.val; rw [if_pos rfl]

/-- One column broadcast along thirty lanes: entry (r, f) is entry (r, 0). -/
theorem col_bcast30 (v : S4096x1.Idx → α) (h : S4096x1.Broadcasts S4096x30) (r : Fin 4096) (f : Fin 30) :
    broadcastTo S4096x30 v h (ix2 r f) = v (ix2 r (0 : Fin 1)) :=
  broadcastTo_apply v h _ _ fun ax => by
    match ax with
    | ⟨0, _⟩ => show r.val = if (4096 : ℕ) = 1 then 0 else r.val; rw [if_neg (by decide)]
    | ⟨1, _⟩ => show (0 : ℕ) = if (1 : ℕ) = 1 then 0 else f.val; rw [if_pos rfl]

end Layout

/-! ## The softmax of a block of five logits per row (the status head) -/

/-- The row maximum as the body takes it: the lane maximum of the five logits from minus infinity, against minus infinity. -/
def rmax5 (L : FVec Ideal S4096x5 .f32) : FVec Ideal S4096 .f32 :=
  maximumf (broadcast S4096 (Scalar.ofBits (F := Ideal) .f32 0xFF800000#32))
    (multiReduction (F := Ideal) .maximumf [1] S4096 L 0xFF800000#32 reduces_S4096x5_S4096 (.inl rfl) rfl)
/-- The shifted logits, exponentiated. -/
def shifted5 (L : FVec Ideal S4096x5 .f32) : FVec Ideal S4096x5 .f32 :=
  exp (subf L (broadcastTo S4096x5 (shapeCast S4096x1 (rmax5 L) shapeCasts_S4096_S4096x1) broadcasts_S4096x1_S4096x5))
/-- Their lane sum. -/
def norm5 (L : FVec Ideal S4096x5 .f32) : FVec Ideal S4096 .f32 :=
  multiReduction (F := Ideal) .add [1] S4096 (shifted5 L) 0x00000000#32 reduces_S4096x5_S4096 (.inl rfl) rfl
/-- The quotient: the body's softmax of a block of five logits per row. -/
def soft5 (L : FVec Ideal S4096x5 .f32) : FVec Ideal S4096x5 .f32 :=
  divf (shifted5 L) (broadcastTo S4096x5 (shapeCast S4096x1 (norm5 L) shapeCasts_S4096_S4096x1) broadcasts_S4096x1_S4096x5)

/-- The source index over row r with status class s inserted on the reduced (lane) axis. -/
theorem lane5 (h : S4096x5.Reduces [1] S4096) (r : Fin 4096) (s : Fin 5) : h.lift (ix1 r) s = ix2 r s :=
  funext fun a => Fin.ext (by
    show h.liftVal (ix1 r) s.val a = (ix2 r s a).val
    unfold Shape.Reduces.liftVal
    match a with
    | ⟨0, _⟩ => exact (dif_neg (show ¬ (0 : ℕ) = 1 by decide)).trans ((dif_pos (show (0 : ℕ) < 1 by decide)).trans rfl)
    | ⟨1, _⟩ => exact (dif_pos (show (1 : ℕ) = 1 from rfl)).trans rfl)

theorem rmax5_apply (L : FVec Ideal S4096x5 .f32) (r : Fin 4096) :
    rmax5 L (ix1 r) = rowMax fun s : Fin 5 => L (ix2 r s) := by
  unfold rmax5 rowMax
  refine congrArg (max negInf) ?_
  refine (Ideal.multiReduction_maximumf_single L 0xFF800000#32 reduces_S4096x5_S4096 (.inl rfl) rfl (ix1 r)).trans ?_
  exact congrArg (fun g : Fin 5 → EReal => (Finset.univ : Finset (Fin 5)).fold max negInf g)
    (funext fun s => congrArg L (lane5 reduces_S4096x5_S4096 r s))

theorem shifted5_apply (L : FVec Ideal S4096x5 .f32) (r : Fin 4096) (s : Fin 5) :
    shifted5 L (ix2 r s) = Ideal.exp (L (ix2 r s) - rowMax fun s' : Fin 5 => L (ix2 r s')) := by
  unfold shifted5
  show Ideal.exp (L (ix2 r s) - broadcastTo S4096x5 (shapeCast S4096x1 (rmax5 L) shapeCasts_S4096_S4096x1) broadcasts_S4096x1_S4096x5 (ix2 r s)) = _
  rw [col_bcast5, col_cast, rmax5_apply]

theorem norm5_apply (L : FVec Ideal S4096x5 .f32) (r : Fin 4096) :
    norm5 L (ix1 r) = ∑ s : Fin 5, Ideal.exp (L (ix2 r s) - rowMax fun s' : Fin 5 => L (ix2 r s')) := by
  unfold norm5
  refine (Ideal.multiReduction_add_single (shifted5 L) 0x00000000#32 reduces_S4096x5_S4096 (.inl rfl) rfl (ix1 r)).trans ?_
  exact Finset.sum_congr rfl fun s _ => (congrArg (shifted5 L) (lane5 reduces_S4096x5_S4096 r s)).trans (shifted5_apply L r s)

theorem soft5_apply (L : FVec Ideal S4096x5 .f32) (r : Fin 4096) (s : Fin 5) :
    soft5 L (ix2 r s) = softmax (fun s' : Fin 5 => L (ix2 r s')) s := by
  unfold soft5 softmax
  show Ideal.div (shifted5 L (ix2 r s))
    (broadcastTo S4096x5 (shapeCast S4096x1 (norm5 L) shapeCasts_S4096_S4096x1) broadcasts_S4096x1_S4096x5 (ix2 r s)) = _
  rw [col_bcast5, col_cast, norm5_apply, shifted5_apply]

/-! ## The softmax of a block of thirty logits per row (the flight head) -/

/-- The row maximum as the body takes it: the lane maximum of the thirty logits from minus infinity, against minus infinity. -/
def rmax30 (L : FVec Ideal S4096x30 .f32) : FVec Ideal S4096 .f32 :=
  maximumf (broadcast S4096 (Scalar.ofBits (F := Ideal) .f32 0xFF800000#32))
    (multiReduction (F := Ideal) .maximumf [1] S4096 L 0xFF800000#32 reduces_S4096x30_S4096 (.inl rfl) rfl)
/-- The shifted logits, exponentiated. -/
def shifted30 (L : FVec Ideal S4096x30 .f32) : FVec Ideal S4096x30 .f32 :=
  exp (subf L (broadcastTo S4096x30 (shapeCast S4096x1 (rmax30 L) shapeCasts_S4096_S4096x1) broadcasts_S4096x1_S4096x30))
/-- Their lane sum. -/
def norm30 (L : FVec Ideal S4096x30 .f32) : FVec Ideal S4096 .f32 :=
  multiReduction (F := Ideal) .add [1] S4096 (shifted30 L) 0x00000000#32 reduces_S4096x30_S4096 (.inl rfl) rfl
/-- The quotient: the body's softmax of a block of thirty logits per row. -/
def soft30 (L : FVec Ideal S4096x30 .f32) : FVec Ideal S4096x30 .f32 :=
  divf (shifted30 L) (broadcastTo S4096x30 (shapeCast S4096x1 (norm30 L) shapeCasts_S4096_S4096x1) broadcasts_S4096x1_S4096x30)

/-- The source index over row r with flight class f inserted on the reduced (lane) axis. -/
theorem lane30 (h : S4096x30.Reduces [1] S4096) (r : Fin 4096) (f : Fin 30) : h.lift (ix1 r) f = ix2 r f :=
  funext fun a => Fin.ext (by
    show h.liftVal (ix1 r) f.val a = (ix2 r f a).val
    unfold Shape.Reduces.liftVal
    match a with
    | ⟨0, _⟩ => exact (dif_neg (show ¬ (0 : ℕ) = 1 by decide)).trans ((dif_pos (show (0 : ℕ) < 1 by decide)).trans rfl)
    | ⟨1, _⟩ => exact (dif_pos (show (1 : ℕ) = 1 from rfl)).trans rfl)

theorem rmax30_apply (L : FVec Ideal S4096x30 .f32) (r : Fin 4096) :
    rmax30 L (ix1 r) = rowMax fun f : Fin 30 => L (ix2 r f) := by
  unfold rmax30 rowMax
  refine congrArg (max negInf) ?_
  refine (Ideal.multiReduction_maximumf_single L 0xFF800000#32 reduces_S4096x30_S4096 (.inl rfl) rfl (ix1 r)).trans ?_
  exact congrArg (fun g : Fin 30 → EReal => (Finset.univ : Finset (Fin 30)).fold max negInf g)
    (funext fun f => congrArg L (lane30 reduces_S4096x30_S4096 r f))

theorem shifted30_apply (L : FVec Ideal S4096x30 .f32) (r : Fin 4096) (f : Fin 30) :
    shifted30 L (ix2 r f) = Ideal.exp (L (ix2 r f) - rowMax fun f' : Fin 30 => L (ix2 r f')) := by
  unfold shifted30
  show Ideal.exp (L (ix2 r f) - broadcastTo S4096x30 (shapeCast S4096x1 (rmax30 L) shapeCasts_S4096_S4096x1) broadcasts_S4096x1_S4096x30 (ix2 r f)) = _
  rw [col_bcast30, col_cast, rmax30_apply]

theorem norm30_apply (L : FVec Ideal S4096x30 .f32) (r : Fin 4096) :
    norm30 L (ix1 r) = ∑ f : Fin 30, Ideal.exp (L (ix2 r f) - rowMax fun f' : Fin 30 => L (ix2 r f')) := by
  unfold norm30
  refine (Ideal.multiReduction_add_single (shifted30 L) 0x00000000#32 reduces_S4096x30_S4096 (.inl rfl) rfl (ix1 r)).trans ?_
  exact Finset.sum_congr rfl fun f _ => (congrArg (shifted30 L) (lane30 reduces_S4096x30_S4096 r f)).trans (shifted30_apply L r f)

theorem soft30_apply (L : FVec Ideal S4096x30 .f32) (r : Fin 4096) (f : Fin 30) :
    soft30 L (ix2 r f) = softmax (fun f' : Fin 30 => L (ix2 r f')) f := by
  unfold soft30 softmax
  show Ideal.div (shifted30 L (ix2 r f))
    (broadcastTo S4096x30 (shapeCast S4096x1 (norm30 L) shapeCasts_S4096_S4096x1) broadcasts_S4096x1_S4096x30 (ix2 r f)) = _
  rw [col_bcast30, col_cast, norm30_apply, shifted30_apply]

/-! ## The 35 fused logits -/

variable (x0 : Vec Ideal S4096x1024 .f32) (x1 : Vec Ideal S1024x35 .bf16) (x2 : Vec Ideal S1x35 .f32)

/-- The product's record: it contracts axis 1 of the feature block with axis 0 of the weight matrix. -/
abbrev dotK : DotDims S4096x1024 S1024x35 S4096x35 := dot_S4096x1024_S1024x35_S4096x35_1_0_0_1_n_n

theorem lhsK_0 (i : S4096x35.Idx) (q : dotK.contr.Idx) : (dotK.lhsIdx i q 0).val = (i 0).val := by
  unfold DotDims.lhsIdx
  rw [dif_neg (show ¬(0 : Fin S4096x1024.rank) ∈ dotK.lhsBatch by decide), dif_pos (show (0 : Fin S4096x1024.rank) ∈ dotK.lhsNonContracting by decide)]
  rfl
theorem rhsK_1 (i : S4096x35.Idx) (q : dotK.contr.Idx) : (dotK.rhsIdx i q 1).val = (i 1).val := by
  unfold DotDims.rhsIdx
  rw [dif_neg (show ¬(1 : Fin S1024x35.rank) ∈ dotK.rhsBatch by decide), dif_pos (show (1 : Fin S1024x35.rank) ∈ dotK.rhsNonContracting by decide)]
  rfl

/-- Logit j of row r: the inner product of feature row r with weight column j, plus bias j. -/
theorem logits35 (r : Fin 4096) (j : Fin 35) :
    k0_pay3 (F := Ideal) x0 x1 x2 (ix2 r j)
      = logit (fun k => x0 (ix2 r k)) (fun k => x1 (ix2 k j)) (x2 (ix2 (0 : Fin 1) j)) := by
  unfold k0_pay3
  simp only [shapeCast_self]
  rw [addf_apply, broadcastTo_1b_ab_apply]
  simp only [matmul]
  rw [Ideal.matmul_constant_zero_apply, ← Equiv.sum_comp (contrEquiv1 dotK 1024 rfl rfl).symm]
  unfold logit
  refine congrArg (· + x2 (ix2 (0 : Fin 1) j)) (Finset.sum_congr rfl fun k _ => ?_)
  have hk := contrEquiv1_symm_val dotK 1024 rfl rfl k
  have el : dotK.lhsIdx (ix2 r j) ((contrEquiv1 dotK 1024 rfl rfl).symm k) = ix2 r k := funext fun a => Fin.ext (by
    match a with
    | ⟨0, _⟩ => exact lhsK_0 _ _
    | ⟨1, _⟩ => exact (dotK.lhsIdx_val_of_single rfl _ _).trans hk)
  have er : dotK.rhsIdx (ix2 r j) ((contrEquiv1 dotK 1024 rfl rfl).symm k) = ix2 k j := funext fun a => Fin.ext (by
    match a with
    | ⟨0, _⟩ => exact (dotK.rhsIdx_val_of_single rfl _ _).trans hk
    | ⟨1, _⟩ => exact rhsK_1 _ _)
  rw [el, er]
  rfl

/-! ## The two heads of a row -/

/-- The five status logits of row r: fused columns 0 to 4. -/
def kS (r : Fin 4096) : Fin 5 → EReal :=
  fun s => logit (fun k => x0 (ix2 r k)) (fun k => x1 (ix2 k (⟨s.val, by omega⟩ : Fin 35))) (x2 (ix2 (0 : Fin 1) (⟨s.val, by omega⟩ : Fin 35)))
/-- The thirty flight logits of row r: fused columns 5 to 34. -/
def kF (r : Fin 4096) : Fin 30 → EReal :=
  fun f => logit (fun k => x0 (ix2 r k)) (fun k => x1 (ix2 k (⟨5 + f.val, by omega⟩ : Fin 35))) (x2 (ix2 (0 : Fin 1) (⟨5 + f.val, by omega⟩ : Fin 35)))

/-- The status logits block: the first five columns of the fused logits. -/
def Ls : FVec Ideal S4096x5 .f32 := extractStridedSlice S4096x5 ![0, 0] (k0_pay3 (F := Ideal) x0 x1 x2) slices_S4096x35_o0_0_S4096x5
/-- The flight logits block: the last thirty columns of the fused logits. -/
def Lf : FVec Ideal S4096x30 .f32 := extractStridedSlice S4096x30 ![0, 5] (k0_pay3 (F := Ideal) x0 x1 x2) slices_S4096x35_o0_5_S4096x30

theorem Ls_apply (r : Fin 4096) (s : Fin 5) : Ls x0 x1 x2 (ix2 r s) = kS x0 x1 x2 r s := by
  unfold Ls
  rw [slice2_axis1_apply 0 _ _ r s (⟨s.val, by omega⟩ : Fin 35) (by show s.val = 0 + s.val; omega)]
  exact logits35 x0 x1 x2 r _
theorem Lf_apply (r : Fin 4096) (f : Fin 30) : Lf x0 x1 x2 (ix2 r f) = kF x0 x1 x2 r f := by
  unfold Lf
  rw [slice2_axis1_apply 5 _ _ r f (⟨5 + f.val, by omega⟩ : Fin 35) rfl]
  exact logits35 x0 x1 x2 r _

/-- The status probabilities payload is the softmax of the status logits block. -/
theorem pay4_eq : k0_pay4 (F := Ideal) x0 x1 x2 = soft5 (Ls x0 x1 x2) := rfl
/-- The flight probabilities payload is the softmax of the flight logits block. -/
theorem pay5_eq : k0_pay5 (F := Ideal) x0 x1 x2 = soft30 (Lf x0 x1 x2) := rfl

theorem statusP (r : Fin 4096) (s : Fin 5) : k0_pay4 (F := Ideal) x0 x1 x2 (ix2 r s) = softmax (kS x0 x1 x2 r) s := by
  rw [pay4_eq, soft5_apply]
  exact congrArg (fun l => softmax l s) (funext fun s' => Ls_apply x0 x1 x2 r s')
theorem flightP (r : Fin 4096) (f : Fin 30) : k0_pay5 (F := Ideal) x0 x1 x2 (ix2 r f) = softmax (kF x0 x1 x2 r) f := by
  rw [pay5_eq, soft30_apply]
  exact congrArg (fun l => softmax l f) (funext fun f' => Lf_apply x0 x1 x2 r f')

/-! ## The five stored pieces -/

/-- Column s of the status probabilities, as the one-column slice the body takes. -/
theorem statusCol (o : ℕ) (s : Fin 5) (hs : s.val = o) (h : S4096x5.Slices ![0, o] S4096x1) (r : Fin 4096) (u : Fin 1) :
    extractStridedSlice S4096x1 ![0, o] (k0_pay4 (F := Ideal) x0 x1 x2) h (ix2 r u) = softmax (kS x0 x1 x2 r) s := by
  rw [slice2_axis1_apply o _ _ r u s (by have := u.isLt; omega)]
  exact statusP x0 x1 x2 r s

theorem pay6_apply (r : Fin 4096) (u : Fin 1) : k0_pay6 (F := Ideal) x0 x1 x2 (ix2 r u) = softmax (kS x0 x1 x2 r) 0 :=
  statusCol x0 x1 x2 0 0 rfl slices_S4096x5_o0_0_S4096x1 r u
theorem pay7_apply (r : Fin 4096) (u : Fin 1) : k0_pay7 (F := Ideal) x0 x1 x2 (ix2 r u) = softmax (kS x0 x1 x2 r) 1 :=
  statusCol x0 x1 x2 1 1 rfl slices_S4096x5_o0_1_S4096x1 r u
theorem pay8_apply (r : Fin 4096) (u : Fin 1) : k0_pay8 (F := Ideal) x0 x1 x2 (ix2 r u) = softmax (kS x0 x1 x2 r) 2 :=
  statusCol x0 x1 x2 2 2 rfl slices_S4096x5_o0_2_S4096x1 r u
theorem pay9_apply (r : Fin 4096) (u : Fin 1) : k0_pay9 (F := Ideal) x0 x1 x2 (ix2 r u) = softmax (kS x0 x1 x2 r) 3 :=
  statusCol x0 x1 x2 3 3 rfl slices_S4096x5_o0_3_S4096x1 r u
theorem pay10_apply (r : Fin 4096) (u : Fin 1) : k0_pay10 (F := Ideal) x0 x1 x2 (ix2 r u) = softmax (kS x0 x1 x2 r) 4 :=
  statusCol x0 x1 x2 4 4 rfl slices_S4096x5_o0_4_S4096x1 r u

/-- A one-column factor broadcast along the thirty flight lanes and multiplied in: the first product piece. -/
theorem pay1_apply (v33 : FVec Ideal S4096x30 .f32) (v38 : FVec Ideal S4096x1 .f32) (r : Fin 4096) (f : Fin 30) :
    k0_pay1 (F := Ideal) v33 v38 (ix2 r f) = v38 (ix2 r (0 : Fin 1)) * v33 (ix2 r f) := by
  unfold k0_pay1
  show broadcastTo S4096x30 v38 broadcasts_S4096x1_S4096x30 (ix2 r f) * v33 (ix2 r f) = _
  rw [col_bcast30]
/-- The second product piece, the same with the other factor. -/
theorem pay2_apply (v33 : FVec Ideal S4096x30 .f32) (v37 : FVec Ideal S4096x1 .f32) (r : Fin 4096) (f : Fin 30) :
    k0_pay2 (F := Ideal) v33 v37 (ix2 r f) = v37 (ix2 r (0 : Fin 1)) * v33 (ix2 r f) := by
  unfold k0_pay2
  show broadcastTo S4096x30 v37 broadcasts_S4096x1_S4096x30 (ix2 r f) * v33 (ix2 r f) = _
  rw [col_bcast30]

end Cert.KernelIdeal.Row

end
-- ==== Proof.KernelBlock.lean ====
/-
  What one grid point leaves in the output block. The body stores five pieces that tile the 4096 by 63 block: columns 0, 1
  and 2 (one status probability each: classes 0, 2 and 1), columns 3 to 32 (status class 4 times the thirty flight
  probabilities) and columns 33 to 62 (status class 3 times the same). Each piece is the restriction of one function of
  the block index, the row's 63 action probabilities, so the block read back through the five stores is that function.
-/
import proofs.«104950_j46969762349381_2_alg».proof.Proof.Gen.KernelIdeal.Frame
import proofs.«104950_j46969762349381_2_alg».proof.Proof.KernelRow
import Idealize.ShloMosaic.Lib.Pipeline.Value
import Idealize.ShloMosaic.Lib.Tactic

noncomputable section

namespace Cert.KernelIdeal.Block

open Cert.KernelIdeal Cert.KernelIdeal.Gen Cert.KernelIdeal.Row Cert.Scatter
open Idealize.ShloMosaic Idealize.ShloMosaic.TcCoe Idealize.SL.Sem Idealize.ShloMosaic.ValueIdx

variable (x0 : Vec Ideal S4096x1024 .f32) (x1 : Vec Ideal S1024x35 .bf16) (x2 : Vec Ideal S1x35 .f32)

/-- Row r's 63 action probabilities, from the block's feature row r and the fused weights and biases. -/
def rowK (r : Fin 4096) (j : Fin 63) : EReal :=
  actions (softmax (kS x0 x1 x2 r)) (softmax (kF x0 x1 x2 r)) j

/-- The block a grid point leaves, as a function of the block index. -/
def blockTable : S4096x63.Idx → EReal :=
  fun y => rowK x0 x1 x2 ⟨(y 0).val, (y 0).isLt⟩ ⟨(y 1).val, (y 1).isLt⟩

theorem blockTable_at (y : S4096x63.Idx) (r : Fin 4096) (j : Fin 63) (h0 : (y 0).val = r.val) (h1 : (y 1).val = j.val) :
    blockTable x0 x1 x2 y = rowK x0 x1 x2 r j := by
  unfold blockTable
  exact congr (congrArg (rowK x0 x1 x2) (Fin.ext h0)) (Fin.ext h1)

/-- A whole staged block is read from offsets zero. -/
theorem zeroOffsets : (![0, 0] : Fin 2 → Nat) = fun _ => 0 := funext fun a => by fin_cases a <;> rfl

/-- The output block after the body: the five pieces read back are the block table. -/
theorem out_eq (c : Dev nD) (i : grid0.Coords) (a1 : Memref sig .tc .vmem S4096x1024 .f32) (h1 : a1.IsWhole)
    (a2 : Memref sig .tc .vmem S1024x35 .bf16) (h2 : a2.IsWhole) (a3 : Memref sig .tc .vmem S1x35 .f32) (h3 : a3.IsWhole)
    (a4 : Memref sig .tc .vmem S4096x63 .f32) (h4 : a4.IsWhole) :
    out0_A_3 (F := Ideal) c i a1 h1 a2 h2 a3 h3 a4 h4 x0 x1 x2 = blockTable x0 x1 x2 := by
  unfold out0_A_3
  rw [View.read_writes_eq_canon _ _ _ (cover0_A_3 c i a1 h1 a2 h2 a3 h3 a4 h4 x0 x1 x2)]
  funext y
  refine View.canon_apply_of_pieces (blockTable x0 x1 x2) _ ?_ y (cover0_A_3 c i a1 h1 a2 h2 a3 h3 a4 h4 x0 x1 x2 y)
  unfold kernelRun0_A
  dsimp only
  sl_unfold_run_names
  simp only [View.readAt_eq_ld, h1.read_unread, h2.read_unread, h3.read_unread, View.ld_unit_zero (S := S4096x1024) zeroOffsets,
    View.ld_unit_zero (S := S1024x35) zeroOffsets, View.ld_unit_zero (S := S1x35) zeroOffsets]
  intro p hp
  simp only [List.mem_cons, List.mem_nil_iff, or_false] at hp
  rcases hp with rfl | rfl | rfl | rfl | rfl
  · -- columns 33 to 62: status class 3 times the flight probabilities
    intro x
    obtain ⟨r, f, rfl⟩ : ∃ (r : Fin 4096) (f : Fin 30), x = ix2 r f := ⟨x 0, x 1, eq_ix2 x⟩
    refine ((pay2_apply _ _ r f).trans ?_).trans
      (blockTable_at x0 x1 x2 _ r ⟨33 + f.val, by omega⟩ (by show 0 + 1 * r.val = r.val; omega) (by show 33 + 1 * f.val = 33 + f.val; omega)).symm
    rw [pay9_apply, flightP]
    exact (actions_change _ _ f ⟨33 + f.val, by omega⟩ rfl).symm
  · -- columns 3 to 32: status class 4 times the flight probabilities
    intro x
    obtain ⟨r, f, rfl⟩ : ∃ (r : Fin 4096) (f : Fin 30), x = ix2 r f := ⟨x 0, x 1, eq_ix2 x⟩
    refine ((pay1_apply _ _ r f).trans ?_).trans
      (blockTable_at x0 x1 x2 _ r ⟨3 + f.val, by omega⟩ (by show 0 + 1 * r.val = r.val; omega) (by show 3 + 1 * f.val = 3 + f.val; omega)).symm
    rw [pay10_apply, flightP]
    exact (actions_book _ _ f ⟨3 + f.val, by omega⟩ rfl).symm
  · -- column 2: status class 1
    intro x
    obtain ⟨r, u, rfl⟩ : ∃ (r : Fin 4096) (u : Fin 1), x = ix2 r u := ⟨x 0, x 1, eq_ix2 x⟩
    refine (pay7_apply x0 x1 x2 r u).trans
      ((blockTable_at x0 x1 x2 _ r ⟨2, by decide⟩ (by show 0 + 1 * r.val = r.val; omega) (by have := u.isLt; show 2 + 1 * u.val = 2; omega)).trans (actions_2 _ _)).symm
  · -- column 1: status class 2
    intro x
    obtain ⟨r, u, rfl⟩ : ∃ (r : Fin 4096) (u : Fin 1), x = ix2 r u := ⟨x 0, x 1, eq_ix2 x⟩
    refine (pay8_apply x0 x1 x2 r u).trans
      ((blockTable_at x0 x1 x2 _ r ⟨1, by decide⟩ (by show 0 + 1 * r.val = r.val; omega) (by have := u.isLt; show 1 + 1 * u.val = 1; omega)).trans (actions_1 _ _)).symm
  · -- column 0: status class 0
    intro x
    obtain ⟨r, u, rfl⟩ : ∃ (r : Fin 4096) (u : Fin 1), x = ix2 r u := ⟨x 0, x 1, eq_ix2 x⟩
    refine (pay6_apply x0 x1 x2 r u).trans
      ((blockTable_at x0 x1 x2 _ r ⟨0, by decide⟩ (by show 0 + 1 * r.val = r.val; omega) (by have := u.isLt; show 0 + 1 * u.val = 0; omega)).trans (actions_0 _ _)).symm

end Cert.KernelIdeal.Block

end
-- ==== Proof.KernelArray.lean ====
/-
  From blocks to the result array. The 65536 positions are laid out in rows R = 2048 b + t of the flattened features; grid
  point p holds rows 4096 p to 4096 p + 4095. The host lines before the call reshape the features to 65536 rows, lay the
  two heads' weight rows end to end, transpose them (entry (k, j) of the fused matrix is weight row j at feature k) and lay
  the two bias vectors end to end as one row. So at point p the block table of the three staged blocks is rows 4096 p … of
  the flat table; the sixteen blocks tile the array; and the host reshape after the call reads row 2048 b + t back as (b, t).
-/
import proofs.«104950_j46969762349381_2_alg».proof.Proof.Gen.KernelIdeal.Frame
import proofs.«104950_j46969762349381_2_alg».proof.Proof.KernelBlock
import Idealize.ShloMosaic.Lib.Pipeline.Value
import Idealize.ShloMosaic.Lib.StableHlo.Run
import Idealize.ShloMosaic.Lib.ValueLayout

noncomputable section

namespace Cert.KernelIdeal.Table

open Cert.KernelIdeal Cert.KernelIdeal.Gen Cert.KernelIdeal.Row Cert.KernelIdeal.Block Cert.Scatter
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The five argument arrays as launched. -/
abbrev aE : S32x2048x1024.Idx → EReal := (m ((c : Thread nD τ).loc main_arg0))
abbrev aWs : S5x1024.Idx → EReal := (m ((c : Thread nD τ).loc main_arg1))
abbrev aBs : S5.Idx → EReal := (m ((c : Thread nD τ).loc main_arg2))
abbrev aWf : S30x1024.Idx → EReal := (m ((c : Thread nD τ).loc main_arg3))
abbrev aBf : S30.Idx → EReal := (m ((c : Thread nD τ).loc main_arg4))

/-! ## The host lines before the call -/

theorem V_v0 : (V m c main_v0 : S65536x1024.Idx → EReal)
    = shapeCast S65536x1024 (aE m c) shapeCasts_S32x2048x1024_S65536x1024 := by
  show StableHlo.after hostOps0 (fun b => m (c, b)) (Proc.devRef .tc main_v0) = _
  after_results
  rfl

theorem V_v3 : (V m c main_v3 : S1024x35.Idx → EReal)
    = truncf (F := Ideal) .bf16 (transpose S1024x35 [1, 0] (concatenate S35x1024 0 [⟨S5x1024, aWs m c⟩, ⟨S30x1024, aWf m c⟩]
        concatenates_S5x1024_S30x1024_S35x1024_d0) transposes_S35x1024_S1024x35_1_0) bitsLt_bf16_f32 := by
  show StableHlo.after hostOps0 (fun b => m (c, b)) (Proc.devRef .tc main_v3) = _
  after_results

theorem V_v5 : (V m c main_v5 : S1x35.Idx → EReal)
    = shapeCast S1x35 (concatenate S35 0 [⟨S5, aBs m c⟩, ⟨S30, aBf m c⟩] concatenates_S5_S30_S35_d0) shapeCasts_S35_S1x35 := by
  show StableHlo.after hostOps0 (fun b => m (c, b)) (Proc.devRef .tc main_v5) = _
  after_results
  rfl

/-- Row 2048 b + t of the flattened features is position (b, t). -/
theorem feat_at (R : Fin 65536) (k : Fin 1024) (b : Fin 32) (t : Fin 2048) (hR : R.val = b.val * 2048 + t.val) :
    V m c main_v0 (ix2 R k) = aE m c (ix3 b t k) :=
  (congrFun (V_v0 m c) (ix2 R k)).trans (shapeCast_apply _ _ _ _ (by
    rw [Shape.rowMajor_val_three, Shape.rowMajor_val_two]
    show (b.val * 2048 + t.val) * 1024 + k.val = R.val * 1024 + k.val
    rw [hR]))

/-- Fused weight column s (s < 5) is status weight row s. -/
theorem wS_at (k : Fin 1024) (s : Fin 5) :
    V m c main_v3 (ix2 k (⟨s.val, by omega⟩ : Fin 35)) = aWs m c (ix2 s k) :=
  (congrFun (V_v3 m c) _).trans ((transpose_ix2_apply _ _ _ _).trans
    (concatenate_pair_apply_left (t := S35x1024) (s₁ := S5x1024) (s₂ := S30x1024) 0 (aWs m c) (aWf m c)
      concatenates_S5x1024_S30x1024_S35x1024_d0 (ix2 (⟨s.val, by omega⟩ : Fin 35) k) rfl (ix2 s k)
      (fun b' => match b' with | ⟨0, _⟩ => rfl | ⟨1, _⟩ => rfl)))

/-- Fused weight column 5 + f is flight weight row f. -/
theorem wF_at (k : Fin 1024) (f : Fin 30) :
    V m c main_v3 (ix2 k (⟨5 + f.val, by omega⟩ : Fin 35)) = aWf m c (ix2 f k) :=
  (congrFun (V_v3 m c) _).trans ((transpose_ix2_apply _ _ _ _).trans
    (concatenate_pair_apply_right (t := S35x1024) (s₁ := S5x1024) (s₂ := S30x1024) 0 (aWs m c) (aWf m c)
      concatenates_S5x1024_S30x1024_S35x1024_d0 (ix2 (⟨5 + f.val, by omega⟩ : Fin 35) k) rfl rfl (ix2 f k)
      (fun b' hb => match b' with | ⟨0, _⟩ => (hb (Fin.ext rfl)).elim | ⟨1, _⟩ => rfl)
      (by show f.val + 5 = 5 + f.val; omega)))

/-- Fused bias s (s < 5) is status bias s. -/
theorem bS_at (u : Fin 1) (s : Fin 5) :
    V m c main_v5 (ix2 u (⟨s.val, by omega⟩ : Fin 35)) = aBs m c (ix1 s) :=
  (congrFun (V_v5 m c) _).trans ((shapeCast_a_1a_apply _ _ u _).trans
    (concatenate_pair_apply_left (t := S35) (s₁ := S5) (s₂ := S30) 0 (aBs m c) (aBf m c) concatenates_S5_S30_S35_d0
      (ix1 (⟨s.val, by omega⟩ : Fin 35)) rfl (ix1 s)
      (fun b' => match b' with | ⟨0, _⟩ => rfl)))

/-- Fused bias 5 + f is flight bias f. -/
theorem bF_at (u : Fin 1) (f : Fin 30) :
    V m c main_v5 (ix2 u (⟨5 + f.val, by omega⟩ : Fin 35)) = aBf m c (ix1 f) :=
  (congrFun (V_v5 m c) _).trans ((shapeCast_a_1a_apply _ _ u _).trans
    (concatenate_pair_apply_right (t := S35) (s₁ := S5) (s₂ := S30) 0 (aBs m c) (aBf m c) concatenates_S5_S30_S35_d0
      (ix1 (⟨5 + f.val, by omega⟩ : Fin 35)) rfl rfl (ix1 f)
      (fun b' hb => match b' with | ⟨0, _⟩ => (hb (Fin.ext rfl)).elim)
      (by show f.val + 5 = 5 + f.val; omega)))

/-! ## The staged blocks at a grid point -/

/-- The printed index maps over the grid: the feature and output blocks move with the point along the rows, the weights
    and the biases are fetched whole. -/
theorem idx_facts : ∀ p : Fin cfg0.N, win0_0.index p (0 : Fin 2) = p.val ∧ win0_0.index p (1 : Fin 2) = 0
    ∧ win0_1.index p (0 : Fin 2) = 0 ∧ win0_1.index p (1 : Fin 2) = 0
    ∧ win0_2.index p (0 : Fin 2) = 0 ∧ win0_2.index p (1 : Fin 2) = 0
    ∧ win0_3.index p (0 : Fin 2) = p.val ∧ win0_3.index p (1 : Fin 2) = 0 :=
  (by decide +kernel : ∀ p : Fin grid0.N, _)

/-- Row r of the feature block at point p is row 4096 p + r of the flattened features. -/
theorem blk0_at (p : Fin cfg0.N) (r : Fin 4096) (k : Fin 1024) (R : Fin 65536) (hR : R.val = p.val * 4096 + r.val) :
    iblk m c 0 p (ix2 r k) = V m c main_v0 (ix2 R k) := by
  obtain ⟨e0, e1, -, -, -, -, -, -⟩ := idx_facts p
  show V m c main_v0 (((cfg0.win 0).blk p).view.emb (ix2 r k)) = _
  refine congrArg (V m c main_v0) (funext fun a => Fin.ext ?_)
  match a with
  | ⟨0, _⟩ => show win0_0.index p (0 : Fin 2) * 4096 + 1 * r.val = R.val; omega
  | ⟨1, _⟩ => show win0_0.index p (1 : Fin 2) * 1024 + 1 * k.val = k.val; omega

/-- The weight block at any point is the whole fused matrix. -/
theorem blk1_at (p : Fin cfg0.N) (k : Fin 1024) (j : Fin 35) : iblk m c 1 p (ix2 k j) = V m c main_v3 (ix2 k j) := by
  obtain ⟨-, -, e0, e1, -, -, -, -⟩ := idx_facts p
  show V m c main_v3 (((cfg0.win 1).blk p).view.emb (ix2 k j)) = _
  refine congrArg (V m c main_v3) (funext fun a => Fin.ext ?_)
  match a with
  | ⟨0, _⟩ => show win0_1.index p (0 : Fin 2) * 1024 + 1 * k.val = k.val; omega
  | ⟨1, _⟩ => show win0_1.index p (1 : Fin 2) * 35 + 1 * j.val = j.val; omega

/-- The bias block at any point is the whole fused row. -/
theorem blk2_at (p : Fin cfg0.N) (u : Fin 1) (j : Fin 35) : iblk m c 2 p (ix2 u j) = V m c main_v5 (ix2 u j) := by
  obtain ⟨-, -, -, -, e0, e1, -, -⟩ := idx_facts p
  show V m c main_v5 (((cfg0.win 2).blk p).view.emb (ix2 u j)) = _
  refine congrArg (V m c main_v5) (funext fun a => Fin.ext ?_)
  match a with
  | ⟨0, _⟩ => show win0_2.index p (0 : Fin 2) * 1 + 1 * u.val = u.val; omega
  | ⟨1, _⟩ => show win0_2.index p (1 : Fin 2) * 35 + 1 * j.val = j.val; omega

/-! ## A block row is a row of the table -/

/-- If a feature block's row r is position (b, t) and the fused weights and biases are the two heads' laid end to end,
    the row's 63 action probabilities are the table's at (b, t). Stated over any blocks. -/
theorem row_is_table (X0 : Vec Ideal S4096x1024 .f32) (X1 : Vec Ideal S1024x35 .bf16) (X2 : Vec Ideal S1x35 .f32)
    (E : S32x2048x1024.Idx → EReal) (Ws : S5x1024.Idx → EReal) (Bs : S5.Idx → EReal) (Wf : S30x1024.Idx → EReal)
    (Bf : S30.Idx → EReal) (b : Fin 32) (t : Fin 2048) (r : Fin 4096)
    (h0 : ∀ k : Fin 1024, X0 (ix2 r k) = E (ix3 b t k))
    (h1s : ∀ (k : Fin 1024) (s : Fin 5), X1 (ix2 k (⟨s.val, by omega⟩ : Fin 35)) = Ws (ix2 s k))
    (h1f : ∀ (k : Fin 1024) (f : Fin 30), X1 (ix2 k (⟨5 + f.val, by omega⟩ : Fin 35)) = Wf (ix2 f k))
    (h2s : ∀ s : Fin 5, X2 (ix2 (0 : Fin 1) (⟨s.val, by omega⟩ : Fin 35)) = Bs (ix1 s))
    (h2f : ∀ f : Fin 30, X2 (ix2 (0 : Fin 1) (⟨5 + f.val, by omega⟩ : Fin 35)) = Bf (ix1 f)) (j : Fin 63) :
    rowK X0 X1 X2 r j = table E Ws Bs Wf Bf b t j := by
  have hS : kS X0 X1 X2 r = fun s => logit (fun k => E (ix3 b t k)) (fun k => Ws (ix2 s k)) (Bs (ix1 s)) :=
    funext fun s => by unfold kS; simp only [h0, h1s, h2s]
  have hF : kF X0 X1 X2 r = fun f => logit (fun k => E (ix3 b t k)) (fun k => Wf (ix2 f k)) (Bf (ix1 f)) :=
    funext fun f => by unfold kF; simp only [h0, h1f, h2f]
  unfold rowK table rowTable statusProbs flightProbs
  rw [hS, hF]

/-! ## The flat table and what a point writes back -/

/-- Row R = 2048 b + t of the flat table is the table's position (b, t). -/
def flatAt (R : Fin 65536) (j : Fin 63) : EReal :=
  table (aE m c) (aWs m c) (aBs m c) (aWf m c) (aBf m c) ⟨R.val / 2048, by have := R.isLt; omega⟩ ⟨R.val % 2048, by omega⟩ j

/-- The flat table as contents of the call's result array f32[65536, 63]. -/
def flat : S65536x63.Idx → EReal := fun y => flatAt m c ⟨(y 0).val, (y 0).isLt⟩ ⟨(y 1).val, (y 1).isLt⟩

theorem flat_at (y : S65536x63.Idx) (R : Fin 65536) (j : Fin 63) (h0 : (y 0).val = R.val) (h1 : (y 1).val = j.val) :
    flat m c y = flatAt m c R j := by
  unfold flat
  exact congr (congrArg (flatAt m c) (Fin.ext h0)) (Fin.ext h1)

/-- Point p's block table is rows 4096 p … of the flat table. -/
theorem block_at (p : Fin cfg0.N) (r : Fin 4096) (j : Fin 63) (R : Fin 65536) (hR : R.val = p.val * 4096 + r.val) :
    rowK (iblk m c 0 p) (iblk m c 1 p) (iblk m c 2 p) r j = flatAt m c R j :=
  row_is_table (iblk m c 0 p) (iblk m c 1 p) (iblk m c 2 p) (aE m c) (aWs m c) (aBs m c) (aWf m c) (aBf m c)
    ⟨R.val / 2048, by have := R.isLt; omega⟩ ⟨R.val % 2048, by omega⟩ r
    (fun k => (blk0_at m c p r k R hR).trans (feat_at m c R k _ _ (by show R.val = R.val / 2048 * 2048 + R.val % 2048; omega)))
    (fun k s => (blk1_at m c p k _).trans (wS_at m c k s))
    (fun k f => (blk1_at m c p k _).trans (wF_at m c k f))
    (fun s => (blk2_at m c p 0 _).trans (bS_at m c 0 s))
    (fun f => (blk2_at m c p 0 _).trans (bF_at m c 0 f)) j

/-- What point p writes back is block p of the flat table. -/
theorem flushed_eq (p : Fin cfg0.N) :
    (dats m 0 c).flushed 3 p = ((cfg0.win 3).blk p).view.read (Elt Ideal) (flat m c) := by
  have hN : cfg0.N = 16 := N_0
  obtain ⟨-, -, -, -, -, -, e0, e1⟩ := idx_facts p
  show (cfg0.win 3).cut (grid0.coords p) ((dats m 0 c).after 3 p) = _
  rw [after0_3]
  have hout : outsAt0 m c p = blockTable (iblk m c 0 p) (iblk m c 1 p) (iblk m c 2 p) :=
    out_eq (iblk m c 0 p) (iblk m c 1 p) (iblk m c 2 p) c (grid0.coords p) (ms0_0 p) (hs0_0 p) (ms0_1 p) (hs0_1 p)
      (ms0_2 p) (hs0_2 p) (ms0_3 p) (hs0_3 p)
  rw [hout]
  funext y
  have hy0 : (y 0).val < 4096 := (y 0).isLt
  have hy1 : (y 1).val < 63 := (y 1).isLt
  have hp : p.val < 16 := hN ▸ p.isLt
  show blockTable (iblk m c 0 p) (iblk m c 1 p) (iblk m c 2 p) y = flat m c (((cfg0.win 3).blk p).view.emb y)
  refine (blockTable_at _ _ _ y ⟨(y 0).val, hy0⟩ ⟨(y 1).val, hy1⟩ rfl rfl).trans ?_
  refine ((block_at m c p ⟨(y 0).val, hy0⟩ ⟨(y 1).val, hy1⟩ ⟨p.val * 4096 + (y 0).val, by omega⟩ rfl).trans ?_)
  refine (flat_at m c _ ⟨p.val * 4096 + (y 0).val, by omega⟩ ⟨(y 1).val, hy1⟩ ?_ ?_).symm
  · show win0_3.index p (0 : Fin 2) * 4096 + 1 * (y 0).val = p.val * 4096 + (y 0).val; omega
  · show win0_3.index p (1 : Fin 2) * 63 + 1 * (y 1).val = (y 1).val; omega

/-- An index of the result array is in point p's block iff its coordinates are in the block's ranges. -/
theorem mem_blk (p : Fin cfg0.N) (i : S65536x63.Idx) :
    i ∈ ((cfg0.win 3).blk p).view.set ↔ ∀ a : Fin 2, win0_3.index p a * S4096x63.size a ≤ (i a).val
      ∧ (i a).val < win0_3.index p a * S4096x63.size a + S4096x63.size a := by
  show i ∈ ((View.whole main_v6).slice (win0_3.rect p)).set ↔ _
  rw [View.set_slice_whole, Rect.mem_set_unit]
  exact Iff.rfl

/-- The sixteen blocks cover the array: row R lies in block R / 4096. -/
theorem cover (i : S65536x63.Idx) : ∃ p : Fin cfg0.N, (cfg0.win 3).flush p = true ∧ i ∈ ((cfg0.win 3).blk p).view.set := by
  have hN : cfg0.N = 16 := N_0
  have hi0 : (i 0).val < 65536 := (i 0).isLt
  have hi1 : (i 1).val < 63 := (i 1).isLt
  refine ⟨⟨(i 0).val / 4096, by rw [hN]; omega⟩, flush0_3 _, ?_⟩
  obtain ⟨-, -, -, -, -, -, e0, e1⟩ := idx_facts ⟨(i 0).val / 4096, by rw [hN]; omega⟩
  rw [mem_blk]
  intro a
  match a with
  | ⟨0, _⟩ =>
    show win0_3.index ⟨(i 0).val / 4096, _⟩ (0 : Fin 2) * 4096 ≤ (i 0).val
      ∧ (i 0).val < win0_3.index ⟨(i 0).val / 4096, _⟩ (0 : Fin 2) * 4096 + 4096
    rw [e0]; show (i 0).val / 4096 * 4096 ≤ (i 0).val ∧ (i 0).val < (i 0).val / 4096 * 4096 + 4096; omega
  | ⟨1, _⟩ =>
    show win0_3.index ⟨(i 0).val / 4096, _⟩ (1 : Fin 2) * 63 ≤ (i 1).val
      ∧ (i 1).val < win0_3.index ⟨(i 0).val / 4096, _⟩ (1 : Fin 2) * 63 + 63
    rw [e1]; omega

/-- The call's result array after the run is the flat table. -/
theorem final : (dats m 0 c).arrAt 3 cfg0.N = flat m c :=
  (dats m 0 c).arrAt_eq_of_cover 3 (flat m c) (fun p _ => flushed_eq m c p) (cover)

/-! ## The host reshape after the call, and the run -/

/-- The program's result: the flat table reshaped to [32, 2048, 63]. -/
theorem tail_eq : Pipeline.afterTail₀ cfgs (dats m) 0 (V0 m) [hostOps1] c main_v7
    = shapeCast S32x2048x63 (flat m c) shapeCasts_S65536x63_S32x2048x63 := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v7) = _
  after_results
  exact congrArg (fun X : S65536x63.Idx → EReal => shapeCast S32x2048x63 X shapeCasts_S65536x63_S32x2048x63) hw

/-- Reshaped, the flat table is the specification's result. -/
theorem cast_eq : shapeCast S32x2048x63 (flat m c) shapeCasts_S65536x63_S32x2048x63
    = result (aE m c) (aWs m c) (aBs m c) (aWf m c) (aBf m c) := by
  funext i
  obtain ⟨b, t, j, rfl⟩ : ∃ (b : Fin 32) (t : Fin 2048) (j : Fin 63), i = ix3 b t j := ⟨i 0, i 1, i 2, eq_ix3 i⟩
  have hb := b.isLt
  have ht := t.isLt
  rw [result_ix3]
  refine (shapeCast_apply _ _ _ (ix2 (⟨b.val * 2048 + t.val, by omega⟩ : Fin 65536) j) (by
    rw [Shape.rowMajor_val_two, Shape.rowMajor_val_three]
    show (b.val * 2048 + t.val) * 63 + j.val = (b.val * 2048 + t.val) * 63 + j.val
    rfl)).trans ?_
  refine (flat_at m c _ ⟨b.val * 2048 + t.val, by omega⟩ j rfl rfl).trans ?_
  unfold flatAt
  exact congrArg₂ (fun b' t' => table (aE m c) (aWs m c) (aBs m c) (aWf m c) (aBf m c) b' t' j)
    (Fin.ext (by show (b.val * 2048 + t.val) / 2048 = b.val; omega))
    (Fin.ext (by show (b.val * 2048 + t.val) % 2048 = t.val; omega))

/-- The kernel's run, read: every weakly fair execution ends with the result array at the table of the argument arrays,
    the arguments unchanged. -/
theorem run : θ_run defs (onTc (τ := τ) (main (F := Ideal))) ⟨m, fun _ => 0, ρ⟩ fun r => ∀ c : Dev nD,
      r.2.mem ((c.tc : Thread nD τ).loc main_v7) = result (aE m c) (aWs m c) (aBs m c) (aWf m c) (aBf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans ((tail_eq m c).trans (cast_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Table

end
-- ==== Proof.lean ====
/- The proof of Cert.Claim for the two-head softmax table.
   Both programs compute, for each of the 32 x 2048 positions, five status logits and thirty flight logits (inner products
   of the position's 1024 features with a head's weight rows, plus biases), normalise each head by a softmax, and lay out 63
   action probabilities: status classes 0, 2, 1, then status class 4 times the flight probabilities, then status class 3
   times them (Proof/Spec.lean). The reference does this head by head on the whole array (Proof/RefTable.lean); the kernel
   flattens the positions to 65536 rows, fuses the two heads into one 1024 by 35 matrix product per block of 4096 rows,
   slices the 35 logits back into the two heads, stores five pieces per block, and the host reshapes the 65536 rows back
   (Proof/KernelRow.lean, Proof/KernelBlock.lean, Proof/KernelArray.lean). At the extended reals a change of float format
   is the identity and a matrix product into a zero accumulator is the plain sum, so index by index the two results are
   the same term: no algebraic law and no finiteness of the inputs is used.
   The three frames are the generated ones (the reference's is its run with the result dropped); the idealization rewrote
   nothing, so preserves is trivial. -/
import proofs.«104950_j46969762349381_2_alg».proof.Defs
import proofs.«104950_j46969762349381_2_alg».proof.Proof.Gen.Kernel
import proofs.«104950_j46969762349381_2_alg».proof.Proof.Gen.Kernel.Skeleton
import proofs.«104950_j46969762349381_2_alg».proof.Proof.Gen.Kernel.Launch
import proofs.«104950_j46969762349381_2_alg».proof.Proof.Gen.Kernel.Points
import proofs.«104950_j46969762349381_2_alg».proof.Proof.Gen.Kernel.Frame
import proofs.«104950_j46969762349381_2_alg».proof.Proof.Gen.KernelIdeal
import proofs.«104950_j46969762349381_2_alg».proof.Proof.Gen.KernelIdeal.Skeleton
import proofs.«104950_j46969762349381_2_alg».proof.Proof.Gen.KernelIdeal.Launch
import proofs.«104950_j46969762349381_2_alg».proof.Proof.Gen.KernelIdeal.Points
import proofs.«104950_j46969762349381_2_alg».proof.Proof.Gen.KernelIdeal.Frame
import proofs.«104950_j46969762349381_2_alg».proof.Proof.Gen.ReferenceIdeal
import proofs.«104950_j46969762349381_2_alg».proof.Proof.RefRun
import proofs.«104950_j46969762349381_2_alg».proof.Proof.RefRead
import proofs.«104950_j46969762349381_2_alg».proof.Proof.RefTable
import proofs.«104950_j46969762349381_2_alg».proof.Proof.KernelArray
import proofs.«104950_j46969762349381_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs, and its argument arrays end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the table of the argument arrays, which agree. -/
theorem algebraic : Cert.algebraic_KernelIdeal_ReferenceIdeal := by
  intro m ρ m' ρ' _ hagree
  refine ⟨fun c => Cert.Scatter.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Table.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
